-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000x64 : Shape := ⟨2, ![100000, 64]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : IVec S1600000 32) (main_arg1 : IVec S1600000 32) (main_arg2 : FVec F S1600000 .f32) (main_arg3 : FVec F S100000x64 .f32) (main_arg4 : FVec F S64x128 .f32) (main_arg5 : FVec F S128 .f32) (main_arg6 : FVec F S128x128 .f32) (main_arg7 : FVec F S128 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S1600000 : Shape := ⟨1, ![1600000]⟩
abbrev S100000x64 : Shape := ⟨2, ![100000, 64]⟩
abbrev S64x128 : Shape := ⟨2, ![64, 128]⟩
abbrev S128 : Shape := ⟨1, ![128]⟩
abbrev S128x128 : Shape := ⟨2, ![128, 128]⟩
abbrev S1600000x1 : Shape := ⟨2, ![1600000, 1]⟩
abbrev S_ : Shape := ⟨0, ![]⟩
abbrev S1600000x64 : Shape := ⟨2, ![1600000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩

abbrev nBuf : Space → Nat
  | .hbm => 44
  | .vmem => 12
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S100000x64, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S1x128, .f32⟩
  | .hbm, ⟨25, _⟩ => ⟨S100000x128, .f32⟩
  | .hbm, ⟨26, _⟩ => ⟨S1600000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S1x128, .f32⟩
  | .hbm, ⟨43, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1600000 : Shape := ⟨1, ![1600000]⟩
abbrev S100000x64 : Shape := ⟨2, ![100000, 64]⟩
abbrev S64x128 : Shape := ⟨2, ![64, 128]⟩
abbrev S128 : Shape := ⟨1, ![128]⟩
abbrev S128x128 : Shape := ⟨2, ![128, 128]⟩
abbrev S1600000x1 : Shape := ⟨2, ![1600000, 1]⟩
abbrev S_ : Shape := ⟨0, ![]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩

abbrev nBuf : Space → Nat
  | .hbm => 54
  | .vmem => 0
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S100000x64, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S1600000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S1600000x128, .f32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1600000x1_S1600000x128_0_1 : S1600000x1.BroadcastsInDim S1600000x128 (![0, 1] : Fin 2 → Fin S1600000x128.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run, with its result array named.

  The program is four stretches: the first sparse product on the host (a gather of the feature rows, a scaling by the
  edge values, a scatter-add into the destination rows), the first dense layer as a grid of 20 row blocks, the second
  sparse product on the host, the second dense layer as a grid of 20 row blocks.  Every weakly fair execution
  terminates without a fault; the argument arrays end as launched, and the result array ends at the contents the last
  stretch leaves in its buffer (`W4`: the fold of the four stretches over the launch memory).  What that content is, as
  a function of the arguments, is read in the sibling modules.
-/
import proofs.«174635_j10282151706722_1_alg».proof.Proof.Gen.KernelIdeal.Frame

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    boundary's contents of its buffer and the eight argument arrays end as launched. -/
theorem run_out : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Gcn

end
-- ==== Proof.SparseProduct.lean ====
/-
  The sparse product `A·X` of the graph network, as the host computes it in both programs.

  The adjacency matrix is given by its edges: edge `e` goes from node `col e` to node `row e` with weight `vals e`.
  The product gathers row `col e` of `X` for every edge (a negative index counted from the end), scales it by the edge's
  weight, and adds the scaled rows into row `row e` of a zero matrix.  The two programs apply exactly these host
  operations, so the certificate never opens them: it names the chain once, as one function of the edge arrays and of
  `X`, and proves the two programs feed it equal matrices.
-/
import proofs.«174635_j10282151706722_1_alg».proof.KernelIdeal
import proofs.«174635_j10282151706722_1_alg».proof.Proof.Gen.KernelIdeal

noncomputable section

namespace Cert.KernelIdeal.Gcn

open Cert.KernelIdeal Cert.KernelIdeal.Gen Idealize.ShloMosaic

variable {F : FTy → Type} [FloatOps F]

/-- The sparse product with a 64-column feature matrix (the first layer's). -/
def spmm0 (a0 a1 : (⟨S1600000, .i32⟩ : BufTy).Contents (Elt F)) (a2 : (⟨S1600000, .f32⟩ : BufTy).Contents (Elt F))
    (X : (⟨S100000x64, .f32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 a0) (mulf (broadcastInDim S1600000x64 ![0, 1] bcast_S1600000x1_S1600000x64_0_1 (broadcastInDim S1600000x1 ![0] bcast_S1600000_S1600000x1_0 a2)) (Host.gather gather_S100000x64_S1600000x1_S1600000x64_1_0_n_n_0_1_164 X (broadcastInDim S1600000x1 ![0] bcast_S1600000_S1600000x1_0 (select (cmpi .slt a1 (broadcastInDim S1600000 ![] bcast_S_S1600000 (constantI S_ 32 0#32))) (addi a1 (broadcastInDim S1600000 ![] bcast_S_S1600000 (constantI S_ 32 100000#32))) a1))))

/-- The sparse product with a 128-column feature matrix (the second layer's). -/
def spmm1 (a0 a1 : (⟨S1600000, .i32⟩ : BufTy).Contents (Elt F)) (a2 : (⟨S1600000, .f32⟩ : BufTy).Contents (Elt F))
    (X : (⟨S100000x128, .f32⟩ : BufTy).Contents (Elt F)) : (⟨S100000x128, .f32⟩ : BufTy).Contents (Elt F) :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 a0) (mulf (broadcastInDim S1600000x128 ![0, 1] bcast_S1600000x1_S1600000x128_0_1 (broadcastInDim S1600000x1 ![0] bcast_S1600000_S1600000x1_0 a2)) (Host.gather gather_S100000x128_S1600000x1_S1600000x128_1_0_n_n_0_1_1128 X (broadcastInDim S1600000x1 ![0] bcast_S1600000_S1600000x1_0 (select (cmpi .slt a1 (broadcastInDim S1600000 ![] bcast_S_S1600000 (constantI S_ 32 0#32))) (addi a1 (broadcastInDim S1600000 ![] bcast_S_S1600000 (constantI S_ 32 100000#32))) a1))))

end Cert.KernelIdeal.Gcn

end
-- ==== Proof.DenseSpec.lean ====
/-
  One dense layer of the graph network, as a function of its three operands, entry by entry.

  For a feature matrix `X` (one row per node), a weight matrix `W` and a bias laid out as one row `B`, the layer's
  entry at node `p` and unit `q` is the inner product of row `p` of `X` with column `q` of `W`, plus the bias at `q`,
  clamped below at zero.  Both programs compute this function: one block of 5000 rows at a time with the bias
  reshaped to a row, the other in one matrix product with the bias broadcast over the rows.  The function involves
  only sums, products and a maximum of extended reals, so the two agree with no appeal to finiteness.
-/
import Idealize.ShloMosaic.PureOps.Ideal
import Idealize.ShloMosaic.Lib.ValueIdx

noncomputable section

namespace Cert.Gcn

open Idealize.ShloMosaic Idealize.ShloMosaic.ValueIdx

/-- A bias vector laid out as a matrix of one row. -/
def rowOf {n : ℕ} (b : (⟨1, ![n]⟩ : Shape).Idx → EReal) : (⟨2, ![1, n]⟩ : Shape).Idx → EReal :=
  fun j => b (ix1 (j 1))

theorem rowOf_apply {n : ℕ} (b : (⟨1, ![n]⟩ : Shape).Idx → EReal) (u : Fin 1) (q : Fin n) :
    rowOf b (ix2 u q) = b (ix1 q) := rfl

/-- The layer's entry at node `p`, unit `q`: `max (Σ_k X(p,k)·W(k,q) + B(0,q)) 0`. -/
def denseAt {N K M : ℕ} (X : (⟨2, ![N, K]⟩ : Shape).Idx → EReal) (W : (⟨2, ![K, M]⟩ : Shape).Idx → EReal)
    (B : (⟨2, ![1, M]⟩ : Shape).Idx → EReal) (p : Fin N) (q : Fin M) : EReal :=
  max (∑ k : Fin K, X (ix2 p k) * W (ix2 k q) + B (ix2 (0 : Fin 1) q)) 0

/-- The layer as a whole array. -/
def dense {N K M : ℕ} (X : (⟨2, ![N, K]⟩ : Shape).Idx → EReal) (W : (⟨2, ![K, M]⟩ : Shape).Idx → EReal)
    (B : (⟨2, ![1, M]⟩ : Shape).Idx → EReal) : (⟨2, ![N, M]⟩ : Shape).Idx → EReal :=
  fun i => denseAt X W B (i 0) (i 1)

theorem dense_apply {N K M : ℕ} (X : (⟨2, ![N, K]⟩ : Shape).Idx → EReal) (W : (⟨2, ![K, M]⟩ : Shape).Idx → EReal)
    (B : (⟨2, ![1, M]⟩ : Shape).Idx → EReal) (p : Fin N) (q : Fin M) :
    dense X W B (ix2 p q) = denseAt X W B p q := rfl

end Cert.Gcn

end
-- ==== Proof.KernelHost.lean ====
/-
  What each dense region finds in its operand arrays.

  Before the first region the host has computed the first sparse product of the feature matrix (into the region's
  feature operand) and reshaped the first bias to one row; the weight matrix is an argument, untouched.  Between the
  regions the host computes the second sparse product of what the first region left, and reshapes the second bias.
  No host operation and no region writes an argument array, so wherever one is read it holds its launch contents.
-/
import proofs.«174635_j10282151706722_1_alg».proof.Proof.Gen.KernelIdeal.Frame
import proofs.«174635_j10282151706722_1_alg».proof.Proof.SparseProduct
import proofs.«174635_j10282151706722_1_alg».proof.Proof.DenseSpec
import Idealize.ShloMosaic.Lib.StableHlo.Run
import Idealize.ShloMosaic.Lib.ValueLayout
import Idealize.ShloMosaic.Lib.ValueIdx

set_option maxRecDepth 16384

noncomputable section

namespace Cert.KernelIdeal.Gcn

open Cert.KernelIdeal Cert.KernelIdeal.Gen Cert.Gcn
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-! ## The first region's operands -/

/-- Its feature operand is the first sparse product of the launch arrays. -/
theorem entry0_features (c : Dev nD) :
    V1 m ρ c main_v12 = spmm0 (m ((c.tc : Thread nD τ).loc main_arg0)) (m ((c.tc : Thread nD τ).loc main_arg1)) (m ((c.tc : Thread nD τ).loc main_arg2)) (m ((c.tc : Thread nD τ).loc main_arg3)) := by
  show StableHlo.after hostOps0 (W0 m ρ c) (Proc.devRef .tc main_v12) = _
  unfold spmm0
  after_results

/-- Its weight operand is the first weight matrix as launched. -/
theorem entry0_weights (c : Dev nD) : V1 m ρ c main_arg4 = (m ((c.tc : Thread nD τ).loc main_arg4)) := by
  show StableHlo.after hostOps0 (W0 m ρ c) (Proc.devRef .tc main_arg4) = _
  after_results

/-- Its bias operand is the first bias vector as one row. -/
theorem entry0_bias (c : Dev nD) : V1 m ρ c main_v13 = rowOf (m ((c.tc : Thread nD τ).loc main_arg5)) := by
  show StableHlo.after hostOps0 (W0 m ρ c) (Proc.devRef .tc main_v13) = _
  after_results
  funext j
  obtain ⟨u, q, rfl⟩ : ∃ (u : Fin 1) (q : Fin 128), j = ix2 u q := ⟨j 0, j 1, eq_ix2 j⟩
  exact shapeCast_a_1a_apply (W0 m ρ c (Proc.devRef .tc main_arg5)) shapeCasts_S128_S1x128 u q

/-! ## Between the regions -/

/-- The first region's result array, as it leaves it. -/
theorem exit0_result (c : Dev nD) :
    W2 m ρ c (Proc.devRef .tc main_v14) = (dat0 (V1 m ρ) c).arrAt 3 cfg0.N := W2_arr m ρ c 3

/-- Argument 0 as the first region leaves it: as launched. -/
theorem exit0_arg0 (c : Dev nD) : W2 m ρ c (Proc.devRef .tc main_arg0) = (m ((c.tc : Thread nD τ).loc main_arg0)) := by
  rw [W2_of_ne m ρ c main_arg0 (by decide)]
  show StableHlo.after hostOps0 (W0 m ρ c) (Proc.devRef .tc main_arg0) = _
  after_results

/-- Argument 1 as the first region leaves it: as launched. -/
theorem exit0_arg1 (c : Dev nD) : W2 m ρ c (Proc.devRef .tc main_arg1) = (m ((c.tc : Thread nD τ).loc main_arg1)) := by
  rw [W2_of_ne m ρ c main_arg1 (by decide)]
  show StableHlo.after hostOps0 (W0 m ρ c) (Proc.devRef .tc main_arg1) = _
  after_results

/-- Argument 2 as the first region leaves it: as launched. -/
theorem exit0_arg2 (c : Dev nD) : W2 m ρ c (Proc.devRef .tc main_arg2) = (m ((c.tc : Thread nD τ).loc main_arg2)) := by
  rw [W2_of_ne m ρ c main_arg2 (by decide)]
  show StableHlo.after hostOps0 (W0 m ρ c) (Proc.devRef .tc main_arg2) = _
  after_results

/-- Argument 6 as the first region leaves it: as launched. -/
theorem exit0_arg6 (c : Dev nD) : W2 m ρ c (Proc.devRef .tc main_arg6) = (m ((c.tc : Thread nD τ).loc main_arg6)) := by
  rw [W2_of_ne m ρ c main_arg6 (by decide)]
  show StableHlo.after hostOps0 (W0 m ρ c) (Proc.devRef .tc main_arg6) = _
  after_results

/-- Argument 7 as the first region leaves it: as launched. -/
theorem exit0_arg7 (c : Dev nD) : W2 m ρ c (Proc.devRef .tc main_arg7) = (m ((c.tc : Thread nD τ).loc main_arg7)) := by
  rw [W2_of_ne m ρ c main_arg7 (by decide)]
  show StableHlo.after hostOps0 (W0 m ρ c) (Proc.devRef .tc main_arg7) = _
  after_results

/-! ## The second region's operands -/

/-- The host stretch between the regions, from ANY buffer contents `W`: it leaves in the second region's feature operand
    the sparse product of `W`'s edge arrays and of `W`'s first-layer result. -/
theorem between_features (W : Valuation τ sig (Elt Ideal)) :
    StableHlo.after hostOps1 W (Proc.devRef .tc main_v27)
      = spmm1 (W (Proc.devRef .tc main_arg0)) (W (Proc.devRef .tc main_arg1)) (W (Proc.devRef .tc main_arg2))
          (W (Proc.devRef .tc main_v14)) := by
  unfold spmm1
  after_results

/-- It leaves the second weight matrix alone. -/
theorem between_weights (W : Valuation τ sig (Elt Ideal)) :
    StableHlo.after hostOps1 W (Proc.devRef .tc main_arg6) = W (Proc.devRef .tc main_arg6) := by
  after_results

/-- It leaves in the bias operand the second bias vector recast as one row. -/
theorem between_bias (W : Valuation τ sig (Elt Ideal)) :
    StableHlo.after hostOps1 W (Proc.devRef .tc main_v28)
      = fun i => shapeCast S1x128 (W (Proc.devRef .tc main_arg7)) shapeCasts_S128_S1x128 i := by
  after_results
  rfl

/-- The second region's feature operand is the second sparse product of what the first region left. -/
theorem entry1_features (c : Dev nD) :
    V3 m ρ c main_v27 = spmm1 (m ((c.tc : Thread nD τ).loc main_arg0)) (m ((c.tc : Thread nD τ).loc main_arg1)) (m ((c.tc : Thread nD τ).loc main_arg2)) ((dat0 (V1 m ρ) c).arrAt 3 cfg0.N) :=
  (between_features (W2 m ρ c)).trans (by rw [exit0_arg0, exit0_arg1, exit0_arg2, exit0_result])

/-- Its weight operand is the second weight matrix as launched. -/
theorem entry1_weights (c : Dev nD) : V3 m ρ c main_arg6 = (m ((c.tc : Thread nD τ).loc main_arg6)) :=
  (between_weights (W2 m ρ c)).trans (exit0_arg6 m ρ c)

/-- Its bias operand is the second bias vector as one row. -/
theorem entry1_bias (c : Dev nD) : V3 m ρ c main_v28 = rowOf (m ((c.tc : Thread nD τ).loc main_arg7)) := by
  refine (between_bias (W2 m ρ c)).trans ?_
  rw [exit0_arg7]
  funext j
  obtain ⟨u, q, rfl⟩ : ∃ (u : Fin 1) (q : Fin 128), j = ix2 u q := ⟨j 0, j 1, eq_ix2 j⟩
  exact shapeCast_a_1a_apply (m ((c.tc : Thread nD τ).loc main_arg7)) shapeCasts_S128_S1x128 u q

end Cert.KernelIdeal.Gcn

end
-- ==== Proof.KernelPayload0.lean ====
/-
  The first dense layer's kernel body at an entry.

  The body takes a block of 5000 feature rows, the whole 64×128 weight matrix and the bias row; it rounds the first two
  to bf16 (the identity on extended reals), multiplies them into a zero accumulator, adds the bias row broadcast over the
  5000 rows and clamps at zero.  Read at row `p` and column `q` of the block this is the layer's entry of those three
  operands: the matrix unit's sum over its one contracted axis is the sum over `k < 64` of `x(p,k)·w(k,q)`.
-/
import proofs.«174635_j10282151706722_1_alg».proof.Proof.Gen.KernelIdeal.Skeleton
import proofs.«174635_j10282151706722_1_alg».proof.Proof.DenseSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gcn

open Cert.KernelIdeal Cert.KernelIdeal.Gen Cert.Gcn
open Idealize.ShloMosaic Idealize.ShloMosaic.ValueIdx

/-- At output index `i` and any contraction position, the left operand's row is the output's row. -/
theorem dot0_lhs_row (i : S5000x128.Idx) (z : dot_S5000x64_S64x128_S5000x128_1_0_0_1_n_n.contr.Idx) :
    (dot_S5000x64_S64x128_S5000x128_1_0_0_1_n_n.lhsIdx i z 0).val = (i 0).val := by
  unfold DotDims.lhsIdx
  rw [dif_neg (show ¬(0 : Fin S5000x64.rank) ∈ dot_S5000x64_S64x128_S5000x128_1_0_0_1_n_n.lhsBatch by decide),
    dif_pos (show (0 : Fin S5000x64.rank) ∈ dot_S5000x64_S64x128_S5000x128_1_0_0_1_n_n.lhsNonContracting by decide)]
  rfl

/-- The right operand's column is the output's column. -/
theorem dot0_rhs_col (i : S5000x128.Idx) (z : dot_S5000x64_S64x128_S5000x128_1_0_0_1_n_n.contr.Idx) :
    (dot_S5000x64_S64x128_S5000x128_1_0_0_1_n_n.rhsIdx i z 1).val = (i 1).val := by
  unfold DotDims.rhsIdx
  rw [dif_neg (show ¬(1 : Fin S64x128.rank) ∈ dot_S5000x64_S64x128_S5000x128_1_0_0_1_n_n.rhsBatch by decide),
    dif_pos (show (1 : Fin S64x128.rank) ∈ dot_S5000x64_S64x128_S5000x128_1_0_0_1_n_n.rhsNonContracting by decide)]
  rfl

/-- The left operand's index of the block's matrix product at output `(p, q)` and contraction position `k` is `(p, k)`. -/
theorem dot0_lhs (p : Fin 5000) (q : Fin 128) (k : Fin 64) :
    dot_S5000x64_S64x128_S5000x128_1_0_0_1_n_n.lhsIdx (ix2 p q)
      ((contrEquiv1 dot_S5000x64_S64x128_S5000x128_1_0_0_1_n_n 64 rfl rfl).symm k) = ix2 p k := by
  have hk := contrEquiv1_symm_val dot_S5000x64_S64x128_S5000x128_1_0_0_1_n_n 64 rfl rfl k
  funext a; apply Fin.ext
  match a with
  | ⟨0, _⟩ => exact dot0_lhs_row _ _
  | ⟨1, _⟩ => exact (dot_S5000x64_S64x128_S5000x128_1_0_0_1_n_n.lhsIdx_val_of_single rfl _ _).trans hk

/-- The right operand's index there is `(k, q)`. -/
theorem dot0_rhs (p : Fin 5000) (q : Fin 128) (k : Fin 64) :
    dot_S5000x64_S64x128_S5000x128_1_0_0_1_n_n.rhsIdx (ix2 p q)
      ((contrEquiv1 dot_S5000x64_S64x128_S5000x128_1_0_0_1_n_n 64 rfl rfl).symm k) = ix2 k q := by
  have hk := contrEquiv1_symm_val dot_S5000x64_S64x128_S5000x128_1_0_0_1_n_n 64 rfl rfl k
  funext a; apply Fin.ext
  match a with
  | ⟨0, _⟩ => exact (dot_S5000x64_S64x128_S5000x128_1_0_0_1_n_n.rhsIdx_val_of_single rfl _ _).trans hk
  | ⟨1, _⟩ => exact dot0_rhs_col _ _

/-- The block's matrix product into a zero accumulator, at `(p, q)`: the sum over `k < 64` of `l(p,k)·r(k,q)`. -/
theorem matmul0_apply (l : FVec Ideal S5000x64 .bf16) (r : FVec Ideal S64x128 .bf16) (p : Fin 5000) (q : Fin 128) :
    matmul dot_S5000x64_S64x128_S5000x128_1_0_0_1_n_n none l r (constant S5000x128 .f32 0x00000000#32) (ix2 p q)
      = ∑ k : Fin 64, l (ix2 p k) * r (ix2 k q) := by
  refine (Ideal.matmul_constant_zero_apply dot_S5000x64_S64x128_S5000x128_1_0_0_1_n_n none l r (ix2 p q)).trans ?_
  rw [← Equiv.sum_comp (contrEquiv1 dot_S5000x64_S64x128_S5000x128_1_0_0_1_n_n 64 rfl rfl).symm]
  refine Finset.sum_congr rfl fun k _ => ?_
  rw [dot0_lhs p q k, dot0_rhs p q k]

/-- The body's stored value at `(p, q)` is the layer's entry of the three loaded blocks. -/
theorem pay0_apply (x0 : Vec Ideal S5000x64 .f32) (x1 : Vec Ideal S64x128 .f32) (x2 : Vec Ideal S1x128 .f32)
    (p : Fin 5000) (q : Fin 128) :
    k0_pay1 x0 x1 x2 (ix2 p q) = denseAt (N := 5000) (K := 64) (M := 128) x0 x1 x2 p q := by
  unfold k0_pay1 denseAt
  rw [maximumf_apply, addf_apply, broadcast_apply, matmul0_apply, broadcastTo_1b_ab_apply, shapeCast_self,
    shapeCast_self]
  exact congrArg₂ max rfl Ideal.ofBits_zero_f32

end Cert.KernelIdeal.Gcn

end
-- ==== Proof.KernelRegion0.lean ====
/-
  The first dense layer's region: from blocks to the whole array.

  The region runs the body at 20 grid points.  Point `t` reads rows `5000·t … 5000·t + 4999` of the feature matrix, the
  whole weight matrix and the bias row, and writes back rows `5000·t … 5000·t + 4999` of the result.  Entry `(p, q)` of
  what point `t` writes is the layer's entry at node `5000·t + p` and unit `q` of the three arrays as the region finds
  them, so each written block is that block of ONE whole-array function; the 20 blocks tile the 100000 rows (row `r` lies
  in block `r / 5000`), and the array the region leaves is the layer of the arrays it found.
-/
import proofs.«174635_j10282151706722_1_alg».proof.Proof.Gen.KernelIdeal.Frame
import proofs.«174635_j10282151706722_1_alg».proof.Proof.KernelPayload0

set_option maxRecDepth 16384

noncomputable section

namespace Cert.KernelIdeal.Gcn

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

-- the arrays as the region finds them: a parameter, which the run instantiates at the region's entry
variable (V : (c : Dev nD) → (b : Ref sig .tc) → Buf (Elt Ideal) ((c : Thread nD τ).loc b))

theorem origin0 : (![0, 0] : Fin 2 → Nat) = fun _ => 0 := funext fun a => by fin_cases a <;> rfl

/-- The index maps over the grid: the feature and result windows sit at row block `t`, the weight and bias windows at
    their one block. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the layer of the arrays the region found. -/
theorem flushed0 (c : Dev nD) (t : Fin cfg0.N) :
    (dat0 V c).flushed 3 t = ((cfg0.win 3).blk t).view.read (Elt Ideal)
      (dense (N := 100000) (K := 64) (M := 128) (V c main_v12) (V c main_arg4) (V c main_v13)) := by
  show (cfg0.win 3).cut (grid0.coords t) ((dat0 V c).after 3 t) = _
  rw [after0_3]
  unfold out0_3
  rw [View.canon_unit_zero origin0]
  simp only [View.ld_unit_zero (S := S5000x64) origin0, View.ld_unit_zero (S := S64x128) origin0,
    View.ld_unit_zero (S := S1x128) origin0]
  obtain ⟨e00, e01, e10, e11, e20, e21, e30, e31⟩ := index_facts0 t
  have ht : t.val < 20 := lt_of_lt_of_eq t.isLt N_0
  funext j
  obtain ⟨p, q, rfl⟩ : ∃ (p : Fin 5000) (q : Fin 128), j = ix2 p q := ⟨j 0, j 1, eq_ix2 j⟩
  have hp : p.val < 5000 := p.isLt
  have hrow : t.val * 5000 + p.val < 100000 := by omega
  refine (pay0_apply (iblk0 V c 0 t) (iblk0 V c 1 t) (iblk0 V c 2 t) p q).trans ?_
  show denseAt (N := 5000) (K := 64) (M := 128) (iblk0 V c 0 t) (iblk0 V c 1 t) (iblk0 V c 2 t) p q
    = dense (N := 100000) (K := 64) (M := 128) (V c main_v12) (V c main_arg4) (V c main_v13)
        (((cfg0.win 3).blk t).view.emb (ix2 p q))
  have h3 : ((cfg0.win 3).blk t).view.emb (ix2 p q) = ix2 (⟨t.val * 5000 + p.val, hrow⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  rw [h3, dense_apply]
  unfold denseAt
  have hx : ∀ k : Fin 64, iblk0 V c 0 t (ix2 p k)
      = V c main_v12 (ix2 (⟨t.val * 5000 + p.val, hrow⟩ : Fin 100000) k) := fun k => by
    show V c main_v12 (((cfg0.win 0).blk t).view.emb (ix2 p k)) = _
    refine congrArg (V c main_v12) ?_
    funext a; apply Fin.ext
    match a with
    | ⟨0, _⟩ => show win0_0.index t (0 : Fin 2) * 5000 + 1 * p.val = t.val * 5000 + p.val; omega
    | ⟨1, _⟩ => show win0_0.index t (1 : Fin 2) * 64 + 1 * k.val = k.val; omega
  have hw : ∀ k : Fin 64, iblk0 V c 1 t (ix2 k q) = V c main_arg4 (ix2 k q) := fun k => by
    show V c main_arg4 (((cfg0.win 1).blk t).view.emb (ix2 k q)) = _
    refine congrArg (V c main_arg4) ?_
    funext a; apply Fin.ext
    match a with
    | ⟨0, _⟩ => show win0_1.index t (0 : Fin 2) * 64 + 1 * k.val = k.val; omega
    | ⟨1, _⟩ => show win0_1.index t (1 : Fin 2) * 128 + 1 * q.val = q.val; omega
  have hb : iblk0 V c 2 t (ix2 (0 : Fin 1) q) = V c main_v13 (ix2 (0 : Fin 1) q) := by
    show V c main_v13 (((cfg0.win 2).blk t).view.emb (ix2 (0 : Fin 1) q)) = _
    refine congrArg (V c main_v13) ?_
    funext a; apply Fin.ext
    match a with
    | ⟨0, _⟩ => show win0_2.index t (0 : Fin 2) * 1 + 1 * 0 = 0; omega
    | ⟨1, _⟩ => show win0_2.index t (1 : Fin 2) * 128 + 1 * q.val = q.val; omega
  exact congrArg₂ max (congrArg₂ (· + ·) (Finset.sum_congr rfl fun k _ => by rw [hx k, hw k]) hb) rfl

/-- An index of the result array lies in point `t`'s block iff each coordinate lies in the block's range. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v14).slice (win0_3.rect t)).set ↔ _
  rw [View.set_slice_whole, Rect.mem_set_unit]
  exact Iff.rfl

/-- The 20 blocks tile the array: row `r` lies in the block of point `r / 5000`. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 5000 < cfg0.N := lt_of_lt_of_eq (by omega : (i 0).val / 5000 < 20) N_0.symm
  obtain ⟨-, -, -, -, -, -, e30, e31⟩ := index_facts0 ⟨(i 0).val / 5000, hlt⟩
  have e30' : win0_3.index ⟨(i 0).val / 5000, hlt⟩ (0 : Fin 2) = (i 0).val / 5000 := e30
  refine ⟨⟨(i 0).val / 5000, hlt⟩, flush0_3 _, ?_⟩
  rw [mem_blk0]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    omega

/-- The array the region leaves: the dense layer of the arrays it found. -/
theorem final0 (c : Dev nD) :
    (dat0 V c).arrAt 3 cfg0.N
      = dense (N := 100000) (K := 64) (M := 128) (V c main_v12) (V c main_arg4) (V c main_v13) :=
  (dat0 V c).arrAt_eq_of_cover 3 _ (fun t _ => flushed0 V c t) cover0

end Cert.KernelIdeal.Gcn

end
-- ==== Proof.KernelPayload1.lean ====
/-
  The second dense layer's kernel body at an entry.

  The body takes a block of 5000 feature rows, the whole 128×128 weight matrix and the bias row; it rounds the first two
  to bf16 (the identity on extended reals), multiplies them into a zero accumulator, adds the bias row broadcast over the
  5000 rows and clamps at zero.  Read at row `p` and column `q` of the block this is the layer's entry of those three
  operands: the matrix unit's sum over its one contracted axis is the sum over `k < 128` of `x(p,k)·w(k,q)`.
-/
import proofs.«174635_j10282151706722_1_alg».proof.Proof.Gen.KernelIdeal.Skeleton
import proofs.«174635_j10282151706722_1_alg».proof.Proof.DenseSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gcn

open Cert.KernelIdeal Cert.KernelIdeal.Gen Cert.Gcn
open Idealize.ShloMosaic Idealize.ShloMosaic.ValueIdx

/-- At output index `i` and any contraction position, the left operand's row is the output's row. -/
theorem dot1_lhs_row (i : S5000x128.Idx) (z : dot_S5000x128_S128x128_S5000x128_1_0_0_1_n_n.contr.Idx) :
    (dot_S5000x128_S128x128_S5000x128_1_0_0_1_n_n.lhsIdx i z 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The right operand's column is the output's column. -/
theorem dot1_rhs_col (i : S5000x128.Idx) (z : dot_S5000x128_S128x128_S5000x128_1_0_0_1_n_n.contr.Idx) :
    (dot_S5000x128_S128x128_S5000x128_1_0_0_1_n_n.rhsIdx i z 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The left operand's index of the block's matrix product at output `(p, q)` and contraction position `k` is `(p, k)`. -/
theorem dot1_lhs (p : Fin 5000) (q : Fin 128) (k : Fin 128) :
    dot_S5000x128_S128x128_S5000x128_1_0_0_1_n_n.lhsIdx (ix2 p q)
      ((contrEquiv1 dot_S5000x128_S128x128_S5000x128_1_0_0_1_n_n 128 rfl rfl).symm k) = ix2 p k := by
  have hk := contrEquiv1_symm_val dot_S5000x128_S128x128_S5000x128_1_0_0_1_n_n 128 rfl rfl k
  funext a; apply Fin.ext
  match a with
  | ⟨0, _⟩ => exact dot1_lhs_row _ _
  | ⟨1, _⟩ => exact (dot_S5000x128_S128x128_S5000x128_1_0_0_1_n_n.lhsIdx_val_of_single rfl _ _).trans hk

/-- The right operand's index there is `(k, q)`. -/
theorem dot1_rhs (p : Fin 5000) (q : Fin 128) (k : Fin 128) :
    dot_S5000x128_S128x128_S5000x128_1_0_0_1_n_n.rhsIdx (ix2 p q)
      ((contrEquiv1 dot_S5000x128_S128x128_S5000x128_1_0_0_1_n_n 128 rfl rfl).symm k) = ix2 k q := by
  have hk := contrEquiv1_symm_val dot_S5000x128_S128x128_S5000x128_1_0_0_1_n_n 128 rfl rfl k
  funext a; apply Fin.ext
  match a with
  | ⟨0, _⟩ => exact (dot_S5000x128_S128x128_S5000x128_1_0_0_1_n_n.rhsIdx_val_of_single rfl _ _).trans hk
  | ⟨1, _⟩ => exact dot1_rhs_col _ _

/-- The block's matrix product into a zero accumulator, at `(p, q)`: the sum over `k < 128` of `l(p,k)·r(k,q)`. -/
theorem matmul1_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  rw [dot1_lhs p q k, dot1_rhs p q k]

/-- The body's stored value at `(p, q)` is the layer's entry of the three loaded blocks. -/
theorem pay1_apply (x0 : Vec Ideal S5000x128 .f32) (x1 : Vec Ideal S128x128 .f32) (x2 : Vec Ideal S1x128 .f32)
    (p : Fin 5000) (q : Fin 128) :
    k1_pay1 x0 x1 x2 (ix2 p q) = denseAt (N := 5000) (K := 128) (M := 128) x0 x1 x2 p q := by
  unfold k1_pay1 denseAt
  rw [maximumf_apply, addf_apply, broadcast_apply, matmul1_apply, broadcastTo_1b_ab_apply, shapeCast_self,
    shapeCast_self]
  exact congrArg₂ max rfl Ideal.ofBits_zero_f32

end Cert.KernelIdeal.Gcn

end
-- ==== Proof.KernelRegion1.lean ====
/-
  The second dense layer's region: from blocks to the whole array.

  The region runs the body at 20 grid points.  Point `t` reads rows `5000·t … 5000·t + 4999` of the feature matrix, the
  whole weight matrix and the bias row, and writes back rows `5000·t … 5000·t + 4999` of the result.  Entry `(p, q)` of
  what point `t` writes is the layer's entry at node `5000·t + p` and unit `q` of the three arrays as the region finds
  them, so each written block is that block of ONE whole-array function; the 20 blocks tile the 100000 rows (row `r` lies
  in block `r / 5000`), and the array the region leaves is the layer of the arrays it found.
-/
import proofs.«174635_j10282151706722_1_alg».proof.Proof.Gen.KernelIdeal.Frame
import proofs.«174635_j10282151706722_1_alg».proof.Proof.KernelPayload1

set_option maxRecDepth 16384

noncomputable section

namespace Cert.KernelIdeal.Gcn

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

-- the arrays as the region finds them: a parameter, which the run instantiates at the region's entry
variable (V : (c : Dev nD) → (b : Ref sig .tc) → Buf (Elt Ideal) ((c : Thread nD τ).loc b))

theorem origin1 : (![0, 0] : Fin 2 → Nat) = fun _ => 0 := funext fun a => by fin_cases a <;> rfl

/-- The index maps over the grid: the feature and result windows sit at row block `t`, the weight and bias windows at
    their one block. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the layer of the arrays the region found. -/
theorem flushed1 (c : Dev nD) (t : Fin cfg1.N) :
    (dat1 V c).flushed 3 t = ((cfg1.win 3).blk t).view.read (Elt Ideal)
      (dense (N := 100000) (K := 128) (M := 128) (V c main_v27) (V c main_arg6) (V c main_v28)) := by
  show (cfg1.win 3).cut (grid1.coords t) ((dat1 V c).after 3 t) = _
  rw [after1_3]
  unfold out1_3
  rw [View.canon_unit_zero origin1]
  simp only [View.ld_unit_zero (S := S5000x128) origin1, View.ld_unit_zero (S := S128x128) origin1,
    View.ld_unit_zero (S := S1x128) origin1]
  obtain ⟨e00, e01, e10, e11, e20, e21, e30, e31⟩ := index_facts1 t
  have ht : t.val < 20 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  have hrow : t.val * 5000 + p.val < 100000 := by omega
  refine (pay1_apply (iblk1 V c 0 t) (iblk1 V c 1 t) (iblk1 V c 2 t) p q).trans ?_
  show denseAt (N := 5000) (K := 128) (M := 128) (iblk1 V c 0 t) (iblk1 V c 1 t) (iblk1 V c 2 t) p q
    = dense (N := 100000) (K := 128) (M := 128) (V c main_v27) (V c main_arg6) (V c main_v28)
        (((cfg1.win 3).blk t).view.emb (ix2 p q))
  have h3 : ((cfg1.win 3).blk t).view.emb (ix2 p q) = ix2 (⟨t.val * 5000 + p.val, hrow⟩ : Fin 100000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  rw [h3, dense_apply]
  unfold denseAt
  have hx : ∀ k : Fin 128, iblk1 V c 0 t (ix2 p k)
      = V c main_v27 (ix2 (⟨t.val * 5000 + p.val, hrow⟩ : Fin 100000) k) := fun k => by
    show V c main_v27 (((cfg1.win 0).blk t).view.emb (ix2 p k)) = _
    refine congrArg (V c main_v27) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have hw : ∀ k : Fin 128, iblk1 V c 1 t (ix2 k q) = V c main_arg6 (ix2 k q) := fun k => by
    show V c main_arg6 (((cfg1.win 1).blk t).view.emb (ix2 k q)) = _
    refine congrArg (V c main_arg6) ?_
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  have hb : iblk1 V c 2 t (ix2 (0 : Fin 1) q) = V c main_v28 (ix2 (0 : Fin 1) q) := by
    show V c main_v28 (((cfg1.win 2).blk t).view.emb (ix2 (0 : Fin 1) q)) = _
    refine congrArg (V c main_v28) ?_
    funext a; apply Fin.ext
    match a with
    | ⟨0, _⟩ => show win1_2.index t (0 : Fin 2) * 1 + 1 * 0 = 0; omega
    | ⟨1, _⟩ => show win1_2.index t (1 : Fin 2) * 128 + 1 * q.val = q.val; omega
  exact congrArg₂ max (congrArg₂ (· + ·) (Finset.sum_congr rfl fun k _ => by rw [hx k, hw k]) hb) rfl

/-- An index of the result array lies in point `t`'s block iff each coordinate lies in the block's range. -/
theorem mem_blk1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v29).slice (win1_3.rect t)).set ↔ _
  rw [View.set_slice_whole, Rect.mem_set_unit]
  exact Iff.rfl

/-- The 20 blocks tile the array: row `r` lies in the block of point `r / 5000`. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hlt : (i 0).val / 5000 < cfg1.N := lt_of_lt_of_eq (by omega : (i 0).val / 5000 < 20) N_1.symm
  obtain ⟨-, -, -, -, -, -, e30, e31⟩ := index_facts1 ⟨(i 0).val / 5000, hlt⟩
  have e30' : win1_3.index ⟨(i 0).val / 5000, hlt⟩ (0 : Fin 2) = (i 0).val / 5000 := e30
  refine ⟨⟨(i 0).val / 5000, hlt⟩, flush1_3 _, ?_⟩
  rw [mem_blk1]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    omega
  | ⟨1, _⟩ =>
    show win1_3.index ⟨(i 0).val / 5000, hlt⟩ (1 : Fin 2) * 128 ≤ (i 1).val
      ∧ (i 1).val < win1_3.index ⟨(i 0).val / 5000, hlt⟩ (1 : Fin 2) * 128 + 128
    omega

/-- The array the region leaves: the dense layer of the arrays it found. -/
theorem final1 (c : Dev nD) :
    (dat1 V c).arrAt 3 cfg1.N
      = dense (N := 100000) (K := 128) (M := 128) (V c main_v27) (V c main_arg6) (V c main_v28) :=
  (dat1 V c).arrAt_eq_of_cover 3 _ (fun t _ => flushed1 V c t) cover1

end Cert.KernelIdeal.Gcn

end
-- ==== Proof.Network.lean ====
/-
  The two-layer graph network as ONE function of the eight argument arrays.

  `network = dense₂ (A · dense₁ (A · H, W₁, b₁), W₂, b₂)`: the sparse product of the features, the first dense layer,
  the sparse product of its result, the second dense layer.  Both programs' result arrays are this function of their
  arguments; that is the whole claim.
-/
import proofs.«174635_j10282151706722_1_alg».proof.Proof.SparseProduct
import proofs.«174635_j10282151706722_1_alg».proof.Proof.DenseSpec

noncomputable section

namespace Cert.KernelIdeal.Gcn

open Cert.KernelIdeal Cert.Gcn Idealize.ShloMosaic

/-- The network's result array from the edge arrays `a0` (destinations), `a1` (sources), `a2` (weights), the
    features `a3`, and the two layers' weights and biases. -/
def network (a0 a1 : (⟨S1600000, .i32⟩ : BufTy).Contents (Elt Ideal)) (a2 : (⟨S1600000, .f32⟩ : BufTy).Contents (Elt Ideal))
    (a3 : (⟨S100000x64, .f32⟩ : BufTy).Contents (Elt Ideal)) (a4 : (⟨S64x128, .f32⟩ : BufTy).Contents (Elt Ideal))
    (a5 : (⟨S128, .f32⟩ : BufTy).Contents (Elt Ideal)) (a6 : (⟨S128x128, .f32⟩ : BufTy).Contents (Elt Ideal))
    (a7 : (⟨S128, .f32⟩ : BufTy).Contents (Elt Ideal)) : (⟨S100000x128, .f32⟩ : BufTy).Contents (Elt Ideal) :=
  dense (N := 100000) (K := 128) (M := 128)
    (spmm1 a0 a1 a2 (dense (N := 100000) (K := 64) (M := 128) (spmm0 a0 a1 a2 a3) a4 (rowOf a5))) a6 (rowOf a7)

end Cert.KernelIdeal.Gcn

end
-- ==== Proof.KernelValue.lean ====
/-
  The idealized kernel program's result array is the network of its arguments.

  The last region leaves the second dense layer of its operands; those are the second sparse product of the first
  region's result, the second weight matrix and the second bias as a row; the first region leaves the first dense layer
  of the first sparse product of the features, the first weight matrix and the first bias as a row.  Composed: the
  network.
-/
import proofs.«174635_j10282151706722_1_alg».proof.Proof.KernelRun
import proofs.«174635_j10282151706722_1_alg».proof.Proof.KernelHost
import proofs.«174635_j10282151706722_1_alg».proof.Proof.KernelRegion0
import proofs.«174635_j10282151706722_1_alg».proof.Proof.KernelRegion1
import proofs.«174635_j10282151706722_1_alg».proof.Proof.Network

set_option maxRecDepth 16384

noncomputable section

namespace Cert.KernelIdeal.Gcn

open Cert.KernelIdeal Cert.KernelIdeal.Gen Cert.Gcn
open Idealize.ShloMosaic Idealize.ShloMosaic.TcCoe Idealize.SL.Sem

variable (m : (ℓ : Loc nD τ sig) → Buf (Elt Ideal) ℓ) (ρ : Dev nD → PrngReg)

/-- The result buffer's contents after the last stretch: the network of the launch arrays. -/
theorem result_eq (c : Dev nD) :
    W4 m ρ c (Proc.devRef .tc main_v29)
      = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold network
  rw [show W4 m ρ c (Proc.devRef .tc main_v29) = (dat1 (V3 m ρ) c).arrAt 3 cfg1.N from W4_arr m ρ c 3,
    final1 (V3 m ρ) c, entry1_features, entry1_weights, entry1_bias, final0 (V1 m ρ) c, entry0_features,
    entry0_weights, entry0_bias]

/-- The program's run with its result named: every weakly fair execution terminates, nothing faulting, with the result
    array at the network of the arguments and the arguments unchanged. -/
theorem run : θ_run defs (onTc (τ := τ) (main (F := Ideal))) ⟨m, fun _ => 0, ρ⟩ (fun r => ∀ c : Dev nD,
      r.2.mem ((c.tc : Thread nD τ).loc main_v29)
        = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run_out m ρ)

end Cert.KernelIdeal.Gcn

end
-- ==== Proof.RefLayers.lean ====
/-
  The reference program's two dense layers and two sparse products, read as the certificate's functions.

  The reference computes each dense layer in one piece: the whole feature matrix times the weight matrix on the host,
  plus the bias broadcast over the rows, clamped at zero.  Read at node `p` and unit `q` the host's matrix product is the
  sum over `k` of `X(p,k)·W(k,q)`, the broadcast bias is `b(q)`, and the clamp is the maximum with zero: the layer's
  entry.  Between the layers sit the host operations of the sparse product, the same ones the kernel program applies.
-/
import proofs.«174635_j10282151706722_1_alg».proof.Proof.Gen.ReferenceIdeal.Read
import proofs.«174635_j10282151706722_1_alg».proof.Proof.DenseSpec
import proofs.«174635_j10282151706722_1_alg».proof.Proof.SparseProduct
import proofs.«174635_j10282151706722_1_alg».proof.Proof.Network

noncomputable section

namespace Cert.ReferenceIdeal.Gcn

open Cert.ReferenceIdeal Cert.ReferenceIdeal.Gen Cert.ReferenceIdeal.Read Cert.Gcn
open Idealize.ShloMosaic Idealize.ShloMosaic.ValueIdx

/-- The first layer of the reference is the dense layer of the first sparse product, the first weight matrix and the
    first bias as a row. -/
theorem layer0 (x0 x1 : (⟨S1600000, .i32⟩ : BufTy).Contents (Elt Ideal)) (x2 : (⟨S1600000, .f32⟩ : BufTy).Contents (Elt Ideal))
    (x3 : (⟨S100000x64, .f32⟩ : BufTy).Contents (Elt Ideal)) (x4 : (⟨S64x128, .f32⟩ : BufTy).Contents (Elt Ideal))
    (x5 : (⟨S128, .f32⟩ : BufTy).Contents (Elt Ideal)) :
    val_main_v17 (F := Ideal) x0 x1 x2 x3 x4 x5
      = dense (N := 100000) (K := 64) (M := 128) (val_main_v12 (F := Ideal) x0 x1 x2 x3) x4 (rowOf x5) := by
  funext i
  obtain ⟨p, q, rfl⟩ : ∃ (p : Fin 100000) (q : Fin 128), i = ix2 p q := ⟨i 0, i 1, eq_ix2 i⟩
  rw [val_main_v17_apply, val_main_v16_apply, val_main_v13_apply, val_main_v15_apply, val_main_v14_apply,
    val_main_call0_v0_apply, val_main_call0_cst_apply, dense_apply]
  unfold denseAt
  have el : ∀ k : Fin 64, lidx_main_v13 (ix2 p q) k = ix2 p k := fun k =>
    funext fun a => Fin.ext (by match a with | ⟨0, _⟩ => rfl | ⟨1, _⟩ => rfl)
  have er : ∀ k : Fin 64, ridx_main_v13 (ix2 p q) k = ix2 k q := fun k =>
    funext fun a => Fin.ext (by match a with | ⟨0, _⟩ => rfl | ⟨1, _⟩ => rfl)
  have eb : idx_main_v14 (idx_main_v15 (ix2 p q)) = ix1 q :=
    funext fun a => Fin.ext (by match a with | ⟨0, _⟩ => rfl)
  simp only [el, er, eb, rowOf_apply]
  show max ((∑ k : Fin 64, val_main_v12 (F := Ideal) x0 x1 x2 x3 (ix2 p k) * x4 (ix2 k q)) + x5 (ix1 q))
    (Ideal.ofBits .f32 0x00000000#32) = _
  rw [Ideal.ofBits_zero_f32]

/-- The second layer of the reference is the dense layer of the second sparse product, the second weight matrix and the
    second bias as a row. -/
theorem layer1 (x0 x1 : (⟨S1600000, .i32⟩ : BufTy).Contents (Elt Ideal)) (x2 : (⟨S1600000, .f32⟩ : BufTy).Contents (Elt Ideal))
    (x3 : (⟨S100000x64, .f32⟩ : BufTy).Contents (Elt Ideal)) (x4 : (⟨S64x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) :
    val_main_v35 (F := Ideal) x0 x1 x2 x3 x4 x5 x6 x7
      = dense (N := 100000) (K := 128) (M := 128) (val_main_v30 (F := Ideal) x0 x1 x2 x3 x4 x5) x6 (rowOf x7) := by
  funext i
  obtain ⟨p, q, rfl⟩ : ∃ (p : Fin 100000) (q : Fin 128), i = ix2 p q := ⟨i 0, i 1, eq_ix2 i⟩
  rw [val_main_v35_apply, val_main_v34_apply, val_main_v31_apply, val_main_v33_apply, val_main_v32_apply,
    val_main_call1_v0_apply, val_main_call1_cst_apply, dense_apply]
  unfold denseAt
  have el : ∀ k : Fin 128, lidx_main_v31 (ix2 p q) k = ix2 p k := fun k =>
    funext fun a => Fin.ext (by match a with | ⟨0, _⟩ => rfl | ⟨1, _⟩ => rfl)
  have er : ∀ k : Fin 128, ridx_main_v31 (ix2 p q) k = ix2 k q := fun k =>
    funext fun a => Fin.ext (by match a with | ⟨0, _⟩ => rfl | ⟨1, _⟩ => rfl)
  have eb : idx_main_v32 (idx_main_v33 (ix2 p q)) = ix1 q :=
    funext fun a => Fin.ext (by match a with | ⟨0, _⟩ => rfl)
  simp only [el, er, eb, rowOf_apply]
  show max ((∑ k : Fin 128, val_main_v30 (F := Ideal) x0 x1 x2 x3 x4 x5 (ix2 p k) * x6 (ix2 k q)) + x7 (ix1 q))
    (Ideal.ofBits .f32 0x00000000#32) = _
  rw [Ideal.ofBits_zero_f32]

/-- The reference's first sparse product is the certificate's: the same host operations over the same arrays. -/
theorem sparse0 (x0 x1 : (⟨S1600000, .i32⟩ : BufTy).Contents (Elt Ideal)) (x2 : (⟨S1600000, .f32⟩ : BufTy).Contents (Elt Ideal))
    (x3 : (⟨S100000x64, .f32⟩ : BufTy).Contents (Elt Ideal)) :
    val_main_v12 (F := Ideal) x0 x1 x2 x3 = Cert.KernelIdeal.Gcn.spmm0 x0 x1 x2 x3 := by
  unfold val_main_v12 val_main_v11 val_main_v10 val_main_v9 val_main_v8 val_main_v7 val_main_v6 val_main_v5 val_main_v4
    val_main_v3 val_main_v2 val_main_v1 val_main_v0 val_main_c val_main_c_0 val_main_cst Cert.KernelIdeal.Gcn.spmm0
  rfl

/-- The reference's second sparse product is the certificate's, applied to the reference's first layer. -/
theorem sparse1 (x0 x1 : (⟨S1600000, .i32⟩ : BufTy).Contents (Elt Ideal)) (x2 : (⟨S1600000, .f32⟩ : BufTy).Contents (Elt Ideal))
    (x3 : (⟨S100000x64, .f32⟩ : BufTy).Contents (Elt Ideal)) (x4 : (⟨S64x128, .f32⟩ : BufTy).Contents (Elt Ideal))
    (x5 : (⟨S128, .f32⟩ : BufTy).Contents (Elt Ideal)) :
    val_main_v30 (F := Ideal) x0 x1 x2 x3 x4 x5
      = Cert.KernelIdeal.Gcn.spmm1 x0 x1 x2 (val_main_v17 (F := Ideal) x0 x1 x2 x3 x4 x5) := by
  unfold val_main_v30 val_main_v29 val_main_v28 val_main_v27 val_main_v26 val_main_v25 val_main_v24 val_main_v23 val_main_v22
    val_main_v21 val_main_v20 val_main_v19 val_main_v18 val_main_c_1 val_main_c_2 val_main_cst_3 Cert.KernelIdeal.Gcn.spmm1
  rfl

/-- The reference's result term is the network of its arguments. -/
theorem network_eq (x0 x1 : (⟨S1600000, .i32⟩ : BufTy).Contents (Elt Ideal)) (x2 : (⟨S1600000, .f32⟩ : BufTy).Contents (Elt Ideal))
    (x3 : (⟨S100000x64, .f32⟩ : BufTy).Contents (Elt Ideal)) (x4 : (⟨S64x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) :
    val_main_v35 (F := Ideal) x0 x1 x2 x3 x4 x5 x6 x7 = Cert.KernelIdeal.Gcn.network x0 x1 x2 x3 x4 x5 x6 x7 := by
  rw [layer1, sparse1, layer0, sparse0]
  rfl

end Cert.ReferenceIdeal.Gcn

end
-- ==== Proof.lean ====
/-
  A two-layer graph convolutional network: `H₂ = relu (A · relu (A · H · W₁ + b₁) · W₂ + b₂)`, the adjacency matrix `A`
  given by 1.6 million weighted edges over 100000 nodes.

  Both programs compute the sparse products `A · X` with the same host operations (gather the source rows, scale by the
  edge weights, scatter-add into the destination rows).  They differ in the dense layers `relu (X · W + b)`: the kernel
  program runs each as a grid of 20 blocks of 5000 rows, rounding its operands to bf16 on the way into the matrix unit
  and adding the bias reshaped to a row; the reference runs one matrix product over all rows and adds the bias broadcast
  over them.  At the ideal values rounding is the identity and the matrix unit's sum and the host's are the same sum
  over the contracted axis, so entry by entry both layers are `max (Σ_k X(p,k)·W(k,q) + b(q)) 0`: the same sums, products and maxima of extended
  reals term for term.  No law that fails at an infinity is used, and the precondition is never opened.

  The certificate states the network once as a function of the eight arguments (Proof/Network.lean), shows the kernel
  program's result array is that function (Proof/KernelValue.lean: the run, the regions' blocks assembled into whole
  arrays, the host stretches between them) and that the reference's result term is that function
  (Proof/RefLayers.lean).  The ideal pass rewrote nothing, so `preserves` has no conjunct.
-/
import proofs.«174635_j10282151706722_1_alg».proof.Defs
import proofs.«174635_j10282151706722_1_alg».proof.Proof.Gen.Kernel
import proofs.«174635_j10282151706722_1_alg».proof.Proof.Gen.Kernel.Frame
import proofs.«174635_j10282151706722_1_alg».proof.Proof.Gen.KernelIdeal
import proofs.«174635_j10282151706722_1_alg».proof.Proof.Gen.KernelIdeal.Frame
import proofs.«174635_j10282151706722_1_alg».proof.Proof.Gen.ReferenceIdeal
import proofs.«174635_j10282151706722_1_alg».proof.Proof.Gen.Pre_finite_inputs
import proofs.«174635_j10282151706722_1_alg».proof.Proof.Gen.ReferenceIdeal.Run
import proofs.«174635_j10282151706722_1_alg».proof.Proof.Gen.ReferenceIdeal.Read
import proofs.«174635_j10282151706722_1_alg».proof.Proof.KernelValue
import proofs.«174635_j10282151706722_1_alg».proof.Proof.RefLayers

noncomputable section

namespace Cert.Proof

open Idealize.ShloMosaic Idealize.SL.Sem

/-- The kernel program as printed terminates without a fault and leaves its arguments alone. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the network of those arguments in their
    result arrays. -/
theorem algebraic : Cert.algebraic_KernelIdeal_ReferenceIdeal := by
  intro m ρ m' ρ' _ hagree
  refine ⟨_, Cert.KernelIdeal.Gcn.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v35_eq, h0, h1, h2, h3, h4, h5, h6, h7]
  exact Cert.ReferenceIdeal.Gcn.network_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
